-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S2x8192x16 : Shape := ⟨3, ![2, 8192, 16]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S2x8192x16 : S_.BroadcastsInDim S2x8192x16 (![] : Fin 0 → Fin S2x8192x16.rank)
  reducesTo_S2x8192x16_S_d0_1_2 : S2x8192x16.ReducesTo [0, 1, 2] S_

variable [Facts]

def fn {F : FTy → Type} [FloatOps F] (main_arg0 : FVec F S8192x8192 .f32) (main_arg1 : FVec F S2x8192x16 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S2x8192x16 .f32 := Host.absf main_arg1
  let main_cst_0 : FVec F S_ .f32 := constant S_ .f32 0x7F800000#32
  let main_v5 : FVec F S2x8192x16 .f32 := broadcastInDim S2x8192x16 ![] bcast_S_S2x8192x16 main_cst_0
  let main_v6 : IVec S2x8192x16 1 := cmpf .olt main_v4 main_v5
  let main_c_1 : IVec S_ 1 := constantI S_ 1 1#1
  let main_v7 : IVec S_ 1 := (fun x v => Host.reduce IntOp.andi x v reducesTo_S2x8192x16_S_d0_1_2 h_S_) main_v6 main_c_1
  let main_v8 : IVec S_ 1 := andi main_v3 main_v7
  main_v8
-- ==== Kernel.lean ====
abbrev S8192x8192 : Shape := ⟨2, ![8192, 8192]⟩
abbrev S2x8192x16 : Shape := ⟨3, ![2, 8192, 16]⟩
abbrev S8192x2x16 : Shape := ⟨3, ![8192, 2, 16]⟩
abbrev S8192x32 : Shape := ⟨2, ![8192, 32]⟩
abbrev S2x4096x8192 : Shape := ⟨3, ![2, 4096, 8192]⟩
abbrev S2x4096x32 : Shape := ⟨3, ![2, 4096, 32]⟩
abbrev S1x256x8192 : Shape := ⟨3, ![1, 256, 8192]⟩
abbrev S2x256x32 : Shape := ⟨3, ![2, 256, 32]⟩
abbrev S256x8192 : Shape := ⟨2, ![256, 8192]⟩
abbrev S256x32 : Shape := ⟨2, ![256, 32]⟩
abbrev S1x256x32 : Shape := ⟨3, ![1, 256, 32]⟩

abbrev nBuf : Space → Nat
  | .hbm => 8
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S2x8192x16, .f32⟩
  | .hbm, ⟨2, _⟩ => ⟨S8192x2x16, .f32⟩
  | .hbm, ⟨3, _⟩ => ⟨S8192x32, .f32⟩
  | .hbm, ⟨4, _⟩ => ⟨S2x4096x8192, .f32⟩
  | .hbm, ⟨5, _⟩ => ⟨S2x4096x32, .f32⟩
  | .hbm, ⟨6, _⟩ => ⟨S8192x2x16, .f32⟩
  | .hbm, ⟨7, _⟩ => ⟨S2x8192x16, .f32⟩
  | .local _ .vmem, ⟨0, _⟩ => ⟨S1x256x8192, .f32⟩
  | .local _ .vmem, ⟨1, _⟩ => ⟨S1x256x8192, .f32⟩
  | .local _ .vmem, ⟨2, _⟩ => ⟨S1x256x8192, .f32⟩
  | .local _ .vmem, ⟨3, _⟩ => ⟨S1x256x8192, .f32⟩
  | .local _ .vmem, ⟨4, _⟩ => ⟨S8192x32, .f32⟩
  | .local _ .vmem, ⟨5, _⟩ => ⟨S2x256x32, .f32⟩
  | .local _ .vmem, ⟨6, _⟩ => ⟨S2x256x32, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2x8192x16_S8192x2x16_1_0_2 : S2x8192x16.Transposes [1, 0, 2] S8192x2x16
  shapeCasts_S8192x2x16_S8192x32 : S8192x2x16.ShapeCasts S8192x32
  shapeCasts_S8192x8192_S2x4096x8192 : S8192x8192.ShapeCasts S2x4096x8192
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  inb_S2x256x32_S1x256x32_0_0_0 : ∀ a, (![0, 0, 0] : Fin 3 → Nat) a + S1x256x32.size a ≤ S2x256x32.size a
  h_S1x256x32 : 0 < S1x256x32.numel
  shapeCasts_S1x256x32_S256x32 : S1x256x32.ShapeCasts S256x32
  shapeCasts_S256x32_S1x256x32 : S256x32.ShapeCasts S1x256x32
  inb_S2x256x32_S1x256x32_1_0_0 : ∀ a, (![1, 0, 0] : Fin 3 → Nat) a + S1x256x32.size a ≤ S2x256x32.size a
  shapeCasts_S2x4096x32_S8192x2x16 : S2x4096x32.ShapeCasts S8192x2x16
  transposes_S8192x2x16_S2x8192x16_1_0_2 : S8192x2x16.Transposes [1, 0, 2] S2x8192x16
  dot_S256x8192_S8192x32_S256x32_1_0_0_1_n_n_wf : DotDims.WF S256x8192 S8192x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S2x4096x8192.size a
  hwx0_0 : ∀ i : grid0.Coords, EltTy.bits .f32 = 32 ∨ (Rect.block (s := S2x4096x8192) S1x256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x8192.size a ≤ S2x4096x8192.size a
  hwx0_1 : ∀ i : grid0.Coords, EltTy.bits .f32 = 32 ∨ (Rect.block (s := S2x4096x8192) S1x256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S8192x32.size a
  hwx0_2 : ∀ i : grid0.Coords, EltTy.bits .f32 = 32 ∨ (Rect.block (s := S8192x32) S8192x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x32.size a ≤ S2x4096x32.size a
  hwx0_3 : ∀ i : grid0.Coords, EltTy.bits .f32 = 32 ∨ (Rect.block (s := S2x4096x32) S2x256x32.size (cc0_transform_3 i) (hinb0_3 i)).WholeWords (EltTy.packing .f32)

variable [Facts₀]

def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf

abbrev win0_0 : Pipeline.Window sig grid0 :=
  Pipeline.Window.ofSpec (Memref.whole main_v2) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8192x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2x256x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S2x8192x16 : Shape := ⟨3, ![2, 8192, 16]⟩
abbrev S8192x2x16 : Shape := ⟨3, ![8192, 2, 16]⟩
abbrev S8192x32 : Shape := ⟨2, ![8192, 32]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S2x8192x16, .f32⟩
  | .hbm, ⟨2, _⟩ => ⟨S8192x2x16, .f32⟩
  | .hbm, ⟨3, _⟩ => ⟨S8192x32, .f32⟩
  | .hbm, ⟨4, _⟩ => ⟨S8192x32, .f32⟩
  | .hbm, ⟨5, _⟩ => ⟨S8192x2x16, .f32⟩
  | .hbm, ⟨6, _⟩ => ⟨S2x8192x16, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  transposes_S2x8192x16_S8192x2x16_1_0_2 : S2x8192x16.Transposes [1, 0, 2] S8192x2x16
  shapeCasts_S8192x2x16_S8192x32 : S8192x2x16.ShapeCasts S8192x32
  shapeCasts_S8192x32_S8192x2x16 : S8192x32.ShapeCasts S8192x2x16
  transposes_S8192x2x16_S2x8192x16_1_0_2 : S8192x2x16.Transposes [1, 0, 2] S2x8192x16
  dot_S8192x8192_S8192x32_S8192x32_1_0_0_1_n_n_wf : DotDims.WF S8192x8192 S8192x32 S8192x32 [1] [0] [0] [1] [] []

variable [Facts₀]

def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.KBody.lean ====
/-
  The kernel body at one grid point, and the pipeline's proof data.

  At grid point `t` the body is handed four staging buffers: rows `256 t … 256 t + 255` of the upper half of the
  matrix (window 0) and of its lower half (window 1) — two blocks of ONE array, the matrix viewed as [2, 4096, 8192] —,
  the whole right-hand side [8192, 32] (window 2), and the output block [2, 256, 32] (window 3). It stores the product
  of the upper rows with the right-hand side into the output block's first slab and the product of the lower rows
  into its second slab; the two stores tile the block, so what the block holds afterwards is a function of the
  three input blocks alone (`out3`), whatever it held before (the body also loads each slab before storing it and
  discards what it read).

  Because windows 0 and 1 read the same array, the array's full share is dealt between them in two halves; the
  right-hand side and the output array are held whole.
-/
import proofs.«172657_g83932250898621_cont_9to1_m_989_24_alg».proof.Proof.Gen.Kernel.Launch
import proofs.«172657_g83932250898621_cont_9to1_m_989_24_alg».proof.Proof.Gen.Kernel.Skeleton
import proofs.«172657_g83932250898621_cont_9to1_m_989_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The whole right-hand side. -/
abbrev rB : Rect S8192x32 := Rect.unit (s := S8192x32) ![0, 0] S8192x32.size inb_S8192x32_S8192x32_0_0
/-- A whole block of matrix rows. -/
abbrev rA : Rect S1x256x8192 := Rect.unit (s := S1x256x8192) ![0, 0, 0] S1x256x8192.size inb_S1x256x8192_S1x256x8192_0_0_0
/-- The output block's first slab, -/
abbrev rO0 : Rect S2x256x32 := Rect.unit (s := S2x256x32) ![0, 0, 0] S1x256x32.size inb_S2x256x32_S1x256x32_0_0_0
/-- and its second. -/
abbrev rO1 : Rect S2x256x32 := Rect.unit (s := S2x256x32) ![1, 0, 0] S1x256x32.size inb_S2x256x32_S1x256x32_1_0_0

/-! ## What the body leaves in the output block -/

/-- The output block after the body, from the three input blocks: the second slab's store over the first slab's
    (the later store first). -/
def out3 (x0 x1 : Vec F S1x256x8192 .f32) (x2 : Vec F S8192x32 .f32) : Vec F S2x256x32 .f32 :=
  View.canon [⟨rO1, k0_pay3 (View.ld x2 rB) (View.ld x1 rA)⟩, ⟨rO0, k0_pay2 (View.ld x2 rB) (View.ld x0 rA)⟩]

/-- The two slabs tile the block, so the stores cover it. -/
theorem cover3 (p1 p0 : Vec F S1x256x32 .f32) (y : S2x256x32.Idx) :
    ∃ pc ∈ ([⟨rO1, p1⟩, ⟨rO0, p0⟩] : List (View.Piece (Elt F) S2x256x32 .f32)), y ∈ pc.1.set :=
  View.cover_of_tiled [⟨rO1, p1⟩, ⟨rO0, p0⟩] S1x256x32.size (by rfl) y

/-! ## The body's triple -/

set_option maxHeartbeats 1000000 in
/-- The body on whole staging buffers — the three inputs' at read contents, the output's at anything — runs to
    the continuation holding the inputs' as they were and the output's at `out3` of them. -/
theorem sound_kernel (c : Dev nD) (E : Set ℕ) (i : grid0.Coords)
    (arg1 : Memref sig .tc .vmem S1x256x8192 .f32) (harg1 : arg1.IsWhole)
    (arg2 : Memref sig .tc .vmem S1x256x8192 .f32) (harg2 : arg2.IsWhole)
    (arg3 : Memref sig .tc .vmem S8192x32 .f32) (harg3 : arg3.IsWhole)
    (arg4 : Memref sig .tc .vmem S2x256x32 .f32) (harg4 : arg4.IsWhole)
    (x0 x1 : Vec F S1x256x8192 .f32) (x2 : Vec F S8192x32 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out3 x0 x1 x2)) -∗ K ⟨⟩))
      ⊢ wp frame (wpE (defs₀ (F := F)) Variants.none c none) E (cc0__mm2 i arg1 harg1 arg2 harg2 arg3 harg3 arg4 harg4) K := by
  simp only [cc0__mm2_eq_skeleton]; unfold cc0__mm2_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _)

/-! ## The pipeline's proof data -/

/-- The proof data on core `c`: the arrays as the region finds them; after the body at point `t` each input's buffer
    at its block and the output's at `out3` of the input blocks; the invariant the scoped rest and the generator
    register, untouched; nothing owed; the matrix's share dealt in halves between its two windows. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = out3 (iblk V c 0 t) (iblk V c 1 t) (iblk V c 2 t) := by dsimp only [dat]

/-- Input window 0's current staging buffer holds its block at every point, fetched there or not (an unfetched block is
    the one fetched before: its index has not moved). -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's current staging buffer holds its block at every point, fetched there or not (an unfetched block is
    the one fetched before: its index has not moved). -/
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2's current staging buffer holds its block at every point, fetched there or not (an unfetched block is
    the one fetched before: its index has not moved). -/
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the body's triple applies; the invariant and
    what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Hand

end
-- ==== Proof.KRun.lean ====
/-
  The run of the whole program: the host stretch before the region (the right-hand side transposed and flattened
  to [8192, 32], the matrix viewed as [2, 4096, 8192]), the region, and the host stretch after it (the region's
  [2, 4096, 32] result viewed as [8192, 2, 16] and transposed).

  The buffer contents at the three boundaries are a fold from the launch memory: after the first stretch every
  buffer holds what the stretch's operations compute; the region changes exactly one buffer, its output array,
  which ends at what the write-backs of its sixteen grid points leave; the last stretch computes from that.

  The region's two matrix windows read one array. At the region's entry the array's full share is split into its
  two halves, one per window; at its exit the two halves, still at the entry contents (an input array is never
  written), are joined back into the full share.
-/
import proofs.«172657_g83932250898621_cont_9to1_m_989_24_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One array behind two windows: its share split and joined -/

/-- The distinct buffers behind the four windows' arrays: the matrix view, the right-hand side, the output. -/
theorem arr_image : Finset.univ.image (Pipeline.arrRef spec0) = {main_v2, main_v1, main_v3} := by decide

/-- The buffers behind the arrays, each whole at the full share, ARE the windows' arrays at the same contents once
    the matrix view's full share is dealt in halves to its two windows — in both directions: the split at the
    region's entry, the join at its exit. -/
theorem arrays_iff (c : Dev nD) (Vc : (b : Ref sig .tc) → Buf (Elt F) ((c : Thread nD τ).loc b))
    (dt : Dat τ (Elt F) Unit ℕ (UR sig nD τ) ℕ cfg0 c)
    (h0 : dt.share 0 = fullShare.left) (h1 : dt.share 1 = fullShare.right)
    (h2 : dt.share 2 = fullShare) (h3 : dt.share 3 = fullShare)
    (G : (w : Fin cfg0.W) → Buf (Elt F) ((cfg0.win w).arr.view.loc (c : Thread nD τ)))
    (hG : ∀ w, G w = Vc (Pipeline.arrRef spec0 w)) :
    (Pipeline.arrBufs (Ix := Unit) (Name := ℕ) (U := UR sig nD τ) (Lvl := ℕ) spec0 c Vc : sProp 𝕄) ⊣⊢ dt.arrays G := by
  have hL : (Pipeline.arrBufs (Ix := Unit) (Name := ℕ) (U := UR sig nD τ) (Lvl := ℕ) spec0 c Vc : sProp 𝕄)
      = iprop((((c : Thread nD τ).loc main_v2) ↦{fullShare} Vc main_v2) ∗ (((c : Thread nD τ).loc main_v1) ↦{fullShare} Vc main_v1)
          ∗ (((c : Thread nD τ).loc main_v3) ↦{fullShare} Vc main_v3)) := by
    unfold Pipeline.arrBufs
    rw [arr_image, bigSep_insert (by decide), bigSep_insert (by decide), bigSep_singleton]
    rfl
  have hR : (dt.arrays G : sProp 𝕄)
      = iprop((((c : Thread nD τ).loc main_v2) ↦{fullShare.left} Vc main_v2) ∗ (((c : Thread nD τ).loc main_v2) ↦{fullShare.right} Vc main_v2)
          ∗ (((c : Thread nD τ).loc main_v1) ↦{fullShare} Vc main_v1) ∗ (((c : Thread nD τ).loc main_v3) ↦{fullShare} Vc main_v3)) := by
    unfold Dat.arrays
    rw [bigSep_W0, h0, h1, h2, h3, hG 0, hG 1, hG 2, hG 3]
    try rw [(arr_whole0 0).set_eq_univ]
    try rw [(arr_whole0 1).set_eq_univ]
    try rw [(arr_whole0 2).set_eq_univ]
    try rw [(arr_whole0 3).set_eq_univ]
  rw [hL, hR]
  have hs : ((((c : Thread nD τ).loc main_v2) ↦{fullShare} Vc main_v2) : sProp 𝕄)
      ⊣⊢ iprop((((c : Thread nD τ).loc main_v2) ↦{fullShare.left} Vc main_v2) ∗ (((c : Thread nD τ).loc main_v2) ↦{fullShare.right} Vc main_v2)) :=
    pointsTo_share (PosShare.mem_left_op_right fullShare)
  constructor
  · iintro ⟨Hm, Hb, Ho⟩
    ihave H := hs.1 $$ Hm
    icases H with ⟨Hl, Hr⟩
    isplitl [Hl]; · iexact Hl
    isplitl [Hr]; · iexact Hr
    isplitl [Hb]; · iexact Hb
    iexact Ho
  · iintro ⟨Hl, Hr, Hb, Ho⟩
    isplitl [Hl Hr]
    · iapply hs.2; isplitl [Hl] <;> iassumption
    isplitl [Hb]; · iexact Hb
    iexact Ho

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the first host stretch (the region's entry). -/
abbrev W1 : Dev nD → Valuation τ sig (Elt F) := fun c => StableHlo.after hostOps0 (W0 m ρ c)
/-- The same read at the core's references (what the region's proof data take). -/
abbrev V1 : (c : Dev nD) → (b : Ref sig .tc) → Buf (Elt F) ((c : Thread nD τ).loc b) := fun c b => W1 m ρ c b
/-- At the region's exit: the output array at what the sixteen write-backs leave, every other buffer as entered. -/
def W2 (c : Dev nD) : Valuation τ sig (Elt F) :=
  Function.update (W1 m ρ c) (Proc.devRef .tc main_v3) ((dat (V1 m ρ) c).arrAt 3 cfg0.N)
theorem W2_out (c : Dev nD) : W2 m ρ c (Proc.devRef .tc main_v3) = (dat (V1 m ρ) c).arrAt 3 cfg0.N := by
  unfold W2; exact Function.update_self _ _ _
theorem W2_of_ne (c : Dev nD) (b : Ref sig .tc) (hb : b ≠ main_v3) :
    W2 m ρ c (Proc.devRef .tc b) = W1 m ρ c (Proc.devRef .tc b) := by
  unfold W2; exact Function.update_of_ne (StableHlo.devRef_ne_of_ne hb) _ _
/-- The same read at the core's references. -/
abbrev V2 : (c : Dev nD) → (b : Ref sig .tc) → Buf (Elt F) ((c : Thread nD τ).loc b) := fun c b => W2 m ρ c b
/-- After the last host stretch (the return). -/
abbrev W3 : Dev nD → Valuation τ sig (Elt F) := fun c => StableHlo.after hostOps1 (W2 m ρ c)

/-- At the region's exit every window's array holds what the pipeline leaves there: the three input arrays what they
    held at entry, the output array its write-backs. -/
theorem exit_arr (c : Dev nD) (w : Fin cfg0.W) : (dat (V1 m ρ) c).arrAt w cfg0.N = V2 m ρ c (Pipeline.arrRef spec0 w) := by
  match w with
  | ⟨0, _⟩ => exact (((dat (V1 m ρ) c).arrAt_in 0 rfl _).trans (A_eq (V1 m ρ) c 0)).trans (W2_of_ne m ρ c main_v2 (by decide)).symm
  | ⟨1, _⟩ => exact (((dat (V1 m ρ) c).arrAt_in 1 rfl _).trans (A_eq (V1 m ρ) c 1)).trans (W2_of_ne m ρ c main_v2 (by decide)).symm
  | ⟨2, _⟩ => exact (((dat (V1 m ρ) c).arrAt_in 2 rfl _).trans (A_eq (V1 m ρ) c 2)).trans (W2_of_ne m ρ c main_v1 (by decide)).symm
  | ⟨3, _⟩ => exact (W2_out m ρ c).symm
/-- Off the windows' arrays the exit contents are the entry contents. -/
theorem exit_rest (c : Dev nD) (b : Ref sig .tc) (hb : b ∉ Finset.univ.image (Pipeline.arrRef spec0)) : V2 m ρ c b = V1 m ρ c b :=
  W2_of_ne m ρ c b fun e => hb (e ▸ by rw [arr_image]; decide)

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over every unscoped buffer at the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The region as a segment -/

/-- The entry contents' unscoped buffers are the buffers behind the windows' arrays and the rest. -/
theorem held_split (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec0 c (fun b => W b)
          ∗ Pipeline.unscopedRest (Ix := Unit) (Name := ℕ) (U := UR sig nD τ) (Lvl := ℕ) spec0 c (fun b => W b)) := by
  rw [← Pipeline.unscopedBufs_held]
  exact Pipeline.unscopedBufs_split₀ cfgs 0 winFacts₀0.arr_unscoped c _

theorem share_0 (c : Dev nD) : (pdats m ρ 0 c).share 0 = fullShare.left := rfl
theorem share_1 (c : Dev nD) : (pdats m ρ 0 c).share 1 = fullShare.right := rfl
theorem share_2 (c : Dev nD) : (pdats m ρ 0 c).share 2 = fullShare := rfl
theorem share_3 (c : Dev nD) : (pdats m ρ 0 c).share 3 = fullShare := rfl

set_option backward.isDefEq.respectTransparency.types false in
/-- The region over the thread state: entered from every unscoped buffer at `W1`, left at `W2`. The buffers behind its
    arrays are taken out of the unscoped buffers, the matrix view's share split between its two windows; at the exit
    the two halves are joined and the buffers put back at the exit contents. The generator register goes into the
    region's invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := (arrays_iff c (V1 m ρ c) (pdats m ρ 0 c) (share_0 m ρ c) (share_1 m ρ c) (share_2 m ρ c) (share_3 m ρ c)
      ((pdats m ρ 0 c).arrAt · 0) (fun _ => rfl)).1
    rw [held_split]
    iintro ⟨⟨Hub, Hp, HO⟩, -, -⟩
    icases Hub with ⟨Hab, Hrest⟩
    imodintro
    isplitl [Hab]; · iapply hsplit; iexact Hab
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := (arrays_iff c (V2 m ρ c) (pdats m ρ 0 c) (share_0 m ρ c) (share_1 m ρ c) (share_2 m ρ c) (share_3 m ρ c)
      ((pdats m ρ 0 c).arrAt · cfg0.N) (exit_arr m ρ c)).2
    have hrest : (Pipeline.unscopedRest (Ix := Unit) (Name := ℕ) (U := UR sig nD τ) (Lvl := ℕ) spec0 c (V1 m ρ c) : sProp 𝕄)
        = Pipeline.unscopedRest (Ix := Unit) (Name := ℕ) (U := UR sig nD τ) (Lvl := ℕ) spec0 c (V2 m ρ c) := by
      unfold Pipeline.unscopedRest
      exact bigSep_congr fun b hb => by rw [exit_rest m ρ c b (Finset.mem_sdiff.mp hb).2]
    rw [held_split, hrest]
    iintro ⟨Ha, HO, HY, Hrest⟩
    imodintro
    isplitl [Ha Hrest]
    · isplitl [Ha]
      · iapply hjoin; iexact Ha
      iexact Hrest
    isplitl [HY]; · iexact HY
    unfold Pipeline.Dat.owesAt Pipeline.owesWithin
    icases HO with ⟨%W, -, HO⟩; iexists W; iexact HO

/-! ## The program as segments, and the launch -/

/-- The last thread state without what is owed: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-- The three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- The program is the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds, in every unscoped buffer of every core, the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps1 (W2 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.KRead.lean ====
/-
  The boundary contents read at the buffers the claims speak of.

  No host operation and no store of the region writes an argument array, so at the return each argument holds what
  it held at launch. The result is the last stretch's two operations — view as [8192, 2, 16], swap the first two
  axes — of the region's output array. At the region's entry the matrix window's array is the matrix viewed as
  [2, 4096, 8192], and the right-hand side's is the batch with its first two axes swapped, flattened to [8192, 32].
-/
import proofs.«172657_g83932250898621_cont_9to1_m_989_24_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The first stretch writes neither argument. -/
theorem W1_of_arg (c : Dev nD) (b : Ref sig .tc) (hb : b ≠ main_v0 ∧ b ≠ main_v1 ∧ b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne hb.1, StableHlo.devRef_ne_of_ne hb.2.1, StableHlo.devRef_ne_of_ne hb.2.2⟩))

/-- Nor does the last. -/
theorem W3_of_arg (c : Dev nD) (b : Ref sig .tc) (hb : b ≠ main_v4 ∧ b ≠ main_v5) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne hb.1, StableHlo.devRef_ne_of_ne hb.2⟩))

/-- The matrix ends as launched. -/
theorem W3_main_arg0 (c : Dev nD) : W3 m ρ c (Proc.devRef .tc main_arg0) = m ((c : Thread nD τ).loc main_arg0) :=
  ((W3_of_arg m ρ c main_arg0 (by decide)).trans (W2_of_ne m ρ c main_arg0 (by decide))).trans
    (W1_of_arg m ρ c main_arg0 (by decide))

/-- The batch ends as launched. -/
theorem W3_main_arg1 (c : Dev nD) : W3 m ρ c (Proc.devRef .tc main_arg1) = m ((c : Thread nD τ).loc main_arg1) :=
  ((W3_of_arg m ρ c main_arg1 (by decide)).trans (W2_of_ne m ρ c main_arg1 (by decide))).trans
    (W1_of_arg m ρ c main_arg1 (by decide))

/-- The result is the region's output array viewed as [8192, 2, 16] with its first two axes swapped. -/
theorem W3_result (c : Dev nD) : W3 m ρ c (Proc.devRef .tc main_v5)
    = transpose S2x8192x16 [1, 0, 2] (shapeCast S8192x2x16 ((dat (V1 m ρ) c).arrAt 3 cfg0.N) shapeCasts_S2x4096x32_S8192x2x16)
        transposes_S8192x2x16_S2x8192x16_1_0_2 := by
  rw [← W2_out]
  show StableHlo.after hostOps1 (W2 m ρ c) (Proc.devRef .tc main_v5) = _
  after_results <;> rfl

/-- At the region's entry the matrix windows' array is the matrix viewed as [2, 4096, 8192]. -/
theorem V1_matrix (c : Dev nD) : V1 m ρ c main_v2
    = shapeCast S2x4096x8192 (m ((c : Thread nD τ).loc main_arg0)) shapeCasts_S8192x8192_S2x4096x8192 := by
  show StableHlo.after hostOps0 (W0 m ρ c) (Proc.devRef .tc main_v2) = _
  after_results <;> rfl

/-- At the region's entry the right-hand side is the batch, first two axes swapped, flattened to [8192, 32]. -/
theorem V1_rhs (c : Dev nD) : V1 m ρ c main_v1
    = shapeCast S8192x32 (transpose S8192x2x16 [1, 0, 2] (m ((c : Thread nD τ).loc main_arg1)) transposes_S2x8192x16_S8192x2x16_1_0_2)
        shapeCasts_S8192x2x16_S8192x32 := by
  show StableHlo.after hostOps0 (W0 m ρ c) (Proc.devRef .tc main_v1) = _
  after_results <;> rfl

end Cert.Kernel.Hand

end
-- ==== Proof.KIBody.lean ====
/-
  The kernel body at one grid point, and the pipeline's proof data.

  At grid point `t` the body is handed four staging buffers: rows `256 t … 256 t + 255` of the upper half of the
  matrix (window 0) and of its lower half (window 1) — two blocks of ONE array, the matrix viewed as [2, 4096, 8192] —,
  the whole right-hand side [8192, 32] (window 2), and the output block [2, 256, 32] (window 3). It stores the product
  of the upper rows with the right-hand side into the output block's first slab and the product of the lower rows
  into its second slab; the two stores tile the block, so what the block holds afterwards is a function of the
  three input blocks alone (`out3`), whatever it held before (the body also loads each slab before storing it and
  discards what it read).

  Because windows 0 and 1 read the same array, the array's full share is dealt between them in two halves; the
  right-hand side and the output array are held whole.
-/
import proofs.«172657_g83932250898621_cont_9to1_m_989_24_alg».proof.Proof.Gen.KernelIdeal.Launch
import proofs.«172657_g83932250898621_cont_9to1_m_989_24_alg».proof.Proof.Gen.KernelIdeal.Skeleton
import proofs.«172657_g83932250898621_cont_9to1_m_989_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The whole right-hand side. -/
abbrev rB : Rect S8192x32 := Rect.unit (s := S8192x32) ![0, 0] S8192x32.size inb_S8192x32_S8192x32_0_0
/-- A whole block of matrix rows. -/
abbrev rA : Rect S1x256x8192 := Rect.unit (s := S1x256x8192) ![0, 0, 0] S1x256x8192.size inb_S1x256x8192_S1x256x8192_0_0_0
/-- The output block's first slab, -/
abbrev rO0 : Rect S2x256x32 := Rect.unit (s := S2x256x32) ![0, 0, 0] S1x256x32.size inb_S2x256x32_S1x256x32_0_0_0
/-- and its second. -/
abbrev rO1 : Rect S2x256x32 := Rect.unit (s := S2x256x32) ![1, 0, 0] S1x256x32.size inb_S2x256x32_S1x256x32_1_0_0

/-! ## What the body leaves in the output block -/

/-- The output block after the body, from the three input blocks: the second slab's store over the first slab's
    (the later store first). -/
def out3 (x0 x1 : Vec F S1x256x8192 .f32) (x2 : Vec F S8192x32 .f32) : Vec F S2x256x32 .f32 :=
  View.canon [⟨rO1, k0_pay3 (View.ld x2 rB) (View.ld x1 rA)⟩, ⟨rO0, k0_pay2 (View.ld x2 rB) (View.ld x0 rA)⟩]

/-- The two slabs tile the block, so the stores cover it. -/
theorem cover3 (p1 p0 : Vec F S1x256x32 .f32) (y : S2x256x32.Idx) :
    ∃ pc ∈ ([⟨rO1, p1⟩, ⟨rO0, p0⟩] : List (View.Piece (Elt F) S2x256x32 .f32)), y ∈ pc.1.set :=
  View.cover_of_tiled [⟨rO1, p1⟩, ⟨rO0, p0⟩] S1x256x32.size (by rfl) y

/-! ## The body's triple -/

set_option maxHeartbeats 1000000 in
/-- The body on whole staging buffers — the three inputs' at read contents, the output's at anything — runs to
    the continuation holding the inputs' as they were and the output's at `out3` of them. -/
theorem sound_kernel (c : Dev nD) (E : Set ℕ) (i : grid0.Coords)
    (arg1 : Memref sig .tc .vmem S1x256x8192 .f32) (harg1 : arg1.IsWhole)
    (arg2 : Memref sig .tc .vmem S1x256x8192 .f32) (harg2 : arg2.IsWhole)
    (arg3 : Memref sig .tc .vmem S8192x32 .f32) (harg3 : arg3.IsWhole)
    (arg4 : Memref sig .tc .vmem S2x256x32 .f32) (harg4 : arg4.IsWhole)
    (x0 x1 : Vec F S1x256x8192 .f32) (x2 : Vec F S8192x32 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out3 x0 x1 x2)) -∗ K ⟨⟩))
      ⊢ wp frame (wpE (defs₀ (F := F)) Variants.none c none) E (cc0__mm2 i arg1 harg1 arg2 harg2 arg3 harg3 arg4 harg4) K := by
  simp only [cc0__mm2_eq_skeleton]; unfold cc0__mm2_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _)

/-! ## The pipeline's proof data -/

/-- The proof data on core `c`: the arrays as the region finds them; after the body at point `t` each input's buffer
    at its block and the output's at `out3` of the input blocks; the invariant the scoped rest and the generator
    register, untouched; nothing owed; the matrix's share dealt in halves between its two windows. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = out3 (iblk V c 0 t) (iblk V c 1 t) (iblk V c 2 t) := by dsimp only [dat]

/-- Input window 0's current staging buffer holds its block at every point, fetched there or not (an unfetched block is
    the one fetched before: its index has not moved). -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's current staging buffer holds its block at every point, fetched there or not (an unfetched block is
    the one fetched before: its index has not moved). -/
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2's current staging buffer holds its block at every point, fetched there or not (an unfetched block is
    the one fetched before: its index has not moved). -/
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the body's triple applies; the invariant and
    what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Hand

end
-- ==== Proof.KIRun.lean ====
/-
  The run of the whole program: the host stretch before the region (the right-hand side transposed and flattened
  to [8192, 32], the matrix viewed as [2, 4096, 8192]), the region, and the host stretch after it (the region's
  [2, 4096, 32] result viewed as [8192, 2, 16] and transposed).

  The buffer contents at the three boundaries are a fold from the launch memory: after the first stretch every
  buffer holds what the stretch's operations compute; the region changes exactly one buffer, its output array,
  which ends at what the write-backs of its sixteen grid points leave; the last stretch computes from that.

  The region's two matrix windows read one array. At the region's entry the array's full share is split into its
  two halves, one per window; at its exit the two halves, still at the entry contents (an input array is never
  written), are joined back into the full share.
-/
import proofs.«172657_g83932250898621_cont_9to1_m_989_24_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One array behind two windows: its share split and joined -/

/-- The distinct buffers behind the four windows' arrays: the matrix view, the right-hand side, the output. -/
theorem arr_image : Finset.univ.image (Pipeline.arrRef spec0) = {main_v2, main_v1, main_v3} := by decide

/-- The buffers behind the arrays, each whole at the full share, ARE the windows' arrays at the same contents once
    the matrix view's full share is dealt in halves to its two windows — in both directions: the split at the
    region's entry, the join at its exit. -/
theorem arrays_iff (c : Dev nD) (Vc : (b : Ref sig .tc) → Buf (Elt F) ((c : Thread nD τ).loc b))
    (dt : Dat τ (Elt F) Unit ℕ (UR sig nD τ) ℕ cfg0 c)
    (h0 : dt.share 0 = fullShare.left) (h1 : dt.share 1 = fullShare.right)
    (h2 : dt.share 2 = fullShare) (h3 : dt.share 3 = fullShare)
    (G : (w : Fin cfg0.W) → Buf (Elt F) ((cfg0.win w).arr.view.loc (c : Thread nD τ)))
    (hG : ∀ w, G w = Vc (Pipeline.arrRef spec0 w)) :
    (Pipeline.arrBufs (Ix := Unit) (Name := ℕ) (U := UR sig nD τ) (Lvl := ℕ) spec0 c Vc : sProp 𝕄) ⊣⊢ dt.arrays G := by
  have hL : (Pipeline.arrBufs (Ix := Unit) (Name := ℕ) (U := UR sig nD τ) (Lvl := ℕ) spec0 c Vc : sProp 𝕄)
      = iprop((((c : Thread nD τ).loc main_v2) ↦{fullShare} Vc main_v2) ∗ (((c : Thread nD τ).loc main_v1) ↦{fullShare} Vc main_v1)
          ∗ (((c : Thread nD τ).loc main_v3) ↦{fullShare} Vc main_v3)) := by
    unfold Pipeline.arrBufs
    rw [arr_image, bigSep_insert (by decide), bigSep_insert (by decide), bigSep_singleton]
    rfl
  have hR : (dt.arrays G : sProp 𝕄)
      = iprop((((c : Thread nD τ).loc main_v2) ↦{fullShare.left} Vc main_v2) ∗ (((c : Thread nD τ).loc main_v2) ↦{fullShare.right} Vc main_v2)
          ∗ (((c : Thread nD τ).loc main_v1) ↦{fullShare} Vc main_v1) ∗ (((c : Thread nD τ).loc main_v3) ↦{fullShare} Vc main_v3)) := by
    unfold Dat.arrays
    rw [bigSep_W0, h0, h1, h2, h3, hG 0, hG 1, hG 2, hG 3]
    try rw [(arr_whole0 0).set_eq_univ]
    try rw [(arr_whole0 1).set_eq_univ]
    try rw [(arr_whole0 2).set_eq_univ]
    try rw [(arr_whole0 3).set_eq_univ]
  rw [hL, hR]
  have hs : ((((c : Thread nD τ).loc main_v2) ↦{fullShare} Vc main_v2) : sProp 𝕄)
      ⊣⊢ iprop((((c : Thread nD τ).loc main_v2) ↦{fullShare.left} Vc main_v2) ∗ (((c : Thread nD τ).loc main_v2) ↦{fullShare.right} Vc main_v2)) :=
    pointsTo_share (PosShare.mem_left_op_right fullShare)
  constructor
  · iintro ⟨Hm, Hb, Ho⟩
    ihave H := hs.1 $$ Hm
    icases H with ⟨Hl, Hr⟩
    isplitl [Hl]; · iexact Hl
    isplitl [Hr]; · iexact Hr
    isplitl [Hb]; · iexact Hb
    iexact Ho
  · iintro ⟨Hl, Hr, Hb, Ho⟩
    isplitl [Hl Hr]
    · iapply hs.2; isplitl [Hl] <;> iassumption
    isplitl [Hb]; · iexact Hb
    iexact Ho

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the first host stretch (the region's entry). -/
abbrev W1 : Dev nD → Valuation τ sig (Elt F) := fun c => StableHlo.after hostOps0 (W0 m ρ c)
/-- The same read at the core's references (what the region's proof data take). -/
abbrev V1 : (c : Dev nD) → (b : Ref sig .tc) → Buf (Elt F) ((c : Thread nD τ).loc b) := fun c b => W1 m ρ c b
/-- At the region's exit: the output array at what the sixteen write-backs leave, every other buffer as entered. -/
def W2 (c : Dev nD) : Valuation τ sig (Elt F) :=
  Function.update (W1 m ρ c) (Proc.devRef .tc main_v3) ((dat (V1 m ρ) c).arrAt 3 cfg0.N)
theorem W2_out (c : Dev nD) : W2 m ρ c (Proc.devRef .tc main_v3) = (dat (V1 m ρ) c).arrAt 3 cfg0.N := by
  unfold W2; exact Function.update_self _ _ _
theorem W2_of_ne (c : Dev nD) (b : Ref sig .tc) (hb : b ≠ main_v3) :
    W2 m ρ c (Proc.devRef .tc b) = W1 m ρ c (Proc.devRef .tc b) := by
  unfold W2; exact Function.update_of_ne (StableHlo.devRef_ne_of_ne hb) _ _
/-- The same read at the core's references. -/
abbrev V2 : (c : Dev nD) → (b : Ref sig .tc) → Buf (Elt F) ((c : Thread nD τ).loc b) := fun c b => W2 m ρ c b
/-- After the last host stretch (the return). -/
abbrev W3 : Dev nD → Valuation τ sig (Elt F) := fun c => StableHlo.after hostOps1 (W2 m ρ c)

/-- At the region's exit every window's array holds what the pipeline leaves there: the three input arrays what they
    held at entry, the output array its write-backs. -/
theorem exit_arr (c : Dev nD) (w : Fin cfg0.W) : (dat (V1 m ρ) c).arrAt w cfg0.N = V2 m ρ c (Pipeline.arrRef spec0 w) := by
  match w with
  | ⟨0, _⟩ => exact (((dat (V1 m ρ) c).arrAt_in 0 rfl _).trans (A_eq (V1 m ρ) c 0)).trans (W2_of_ne m ρ c main_v2 (by decide)).symm
  | ⟨1, _⟩ => exact (((dat (V1 m ρ) c).arrAt_in 1 rfl _).trans (A_eq (V1 m ρ) c 1)).trans (W2_of_ne m ρ c main_v2 (by decide)).symm
  | ⟨2, _⟩ => exact (((dat (V1 m ρ) c).arrAt_in 2 rfl _).trans (A_eq (V1 m ρ) c 2)).trans (W2_of_ne m ρ c main_v1 (by decide)).symm
  | ⟨3, _⟩ => exact (W2_out m ρ c).symm
/-- Off the windows' arrays the exit contents are the entry contents. -/
theorem exit_rest (c : Dev nD) (b : Ref sig .tc) (hb : b ∉ Finset.univ.image (Pipeline.arrRef spec0)) : V2 m ρ c b = V1 m ρ c b :=
  W2_of_ne m ρ c b fun e => hb (e ▸ by rw [arr_image]; decide)

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over every unscoped buffer at the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The region as a segment -/

/-- The entry contents' unscoped buffers are the buffers behind the windows' arrays and the rest. -/
theorem held_split (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec0 c (fun b => W b)
          ∗ Pipeline.unscopedRest (Ix := Unit) (Name := ℕ) (U := UR sig nD τ) (Lvl := ℕ) spec0 c (fun b => W b)) := by
  rw [← Pipeline.unscopedBufs_held]
  exact Pipeline.unscopedBufs_split₀ cfgs 0 winFacts₀0.arr_unscoped c _

theorem share_0 (c : Dev nD) : (pdats m ρ 0 c).share 0 = fullShare.left := rfl
theorem share_1 (c : Dev nD) : (pdats m ρ 0 c).share 1 = fullShare.right := rfl
theorem share_2 (c : Dev nD) : (pdats m ρ 0 c).share 2 = fullShare := rfl
theorem share_3 (c : Dev nD) : (pdats m ρ 0 c).share 3 = fullShare := rfl

set_option backward.isDefEq.respectTransparency.types false in
/-- The region over the thread state: entered from every unscoped buffer at `W1`, left at `W2`. The buffers behind its
    arrays are taken out of the unscoped buffers, the matrix view's share split between its two windows; at the exit
    the two halves are joined and the buffers put back at the exit contents. The generator register goes into the
    region's invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := (arrays_iff c (V1 m ρ c) (pdats m ρ 0 c) (share_0 m ρ c) (share_1 m ρ c) (share_2 m ρ c) (share_3 m ρ c)
      ((pdats m ρ 0 c).arrAt · 0) (fun _ => rfl)).1
    rw [held_split]
    iintro ⟨⟨Hub, Hp, HO⟩, -, -⟩
    icases Hub with ⟨Hab, Hrest⟩
    imodintro
    isplitl [Hab]; · iapply hsplit; iexact Hab
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := (arrays_iff c (V2 m ρ c) (pdats m ρ 0 c) (share_0 m ρ c) (share_1 m ρ c) (share_2 m ρ c) (share_3 m ρ c)
      ((pdats m ρ 0 c).arrAt · cfg0.N) (exit_arr m ρ c)).2
    have hrest : (Pipeline.unscopedRest (Ix := Unit) (Name := ℕ) (U := UR sig nD τ) (Lvl := ℕ) spec0 c (V1 m ρ c) : sProp 𝕄)
        = Pipeline.unscopedRest (Ix := Unit) (Name := ℕ) (U := UR sig nD τ) (Lvl := ℕ) spec0 c (V2 m ρ c) := by
      unfold Pipeline.unscopedRest
      exact bigSep_congr fun b hb => by rw [exit_rest m ρ c b (Finset.mem_sdiff.mp hb).2]
    rw [held_split, hrest]
    iintro ⟨Ha, HO, HY, Hrest⟩
    imodintro
    isplitl [Ha Hrest]
    · isplitl [Ha]
      · iapply hjoin; iexact Ha
      iexact Hrest
    isplitl [HY]; · iexact HY
    unfold Pipeline.Dat.owesAt Pipeline.owesWithin
    icases HO with ⟨%W, -, HO⟩; iexists W; iexact HO

/-! ## The program as segments, and the launch -/

/-- The last thread state without what is owed: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-- The three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- The program is the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds, in every unscoped buffer of every core, the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps1 (W2 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.KIRead.lean ====
/-
  The boundary contents read at the buffers the claims speak of.

  No host operation and no store of the region writes an argument array, so at the return each argument holds what
  it held at launch. The result is the last stretch's two operations — view as [8192, 2, 16], swap the first two
  axes — of the region's output array. At the region's entry the matrix window's array is the matrix viewed as
  [2, 4096, 8192], and the right-hand side's is the batch with its first two axes swapped, flattened to [8192, 32].
-/
import proofs.«172657_g83932250898621_cont_9to1_m_989_24_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The first stretch writes neither argument. -/
theorem W1_of_arg (c : Dev nD) (b : Ref sig .tc) (hb : b ≠ main_v0 ∧ b ≠ main_v1 ∧ b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne hb.1, StableHlo.devRef_ne_of_ne hb.2.1, StableHlo.devRef_ne_of_ne hb.2.2⟩))

/-- Nor does the last. -/
theorem W3_of_arg (c : Dev nD) (b : Ref sig .tc) (hb : b ≠ main_v4 ∧ b ≠ main_v5) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne hb.1, StableHlo.devRef_ne_of_ne hb.2⟩))

/-- The matrix ends as launched. -/
theorem W3_main_arg0 (c : Dev nD) : W3 m ρ c (Proc.devRef .tc main_arg0) = m ((c : Thread nD τ).loc main_arg0) :=
  ((W3_of_arg m ρ c main_arg0 (by decide)).trans (W2_of_ne m ρ c main_arg0 (by decide))).trans
    (W1_of_arg m ρ c main_arg0 (by decide))

/-- The batch ends as launched. -/
theorem W3_main_arg1 (c : Dev nD) : W3 m ρ c (Proc.devRef .tc main_arg1) = m ((c : Thread nD τ).loc main_arg1) :=
  ((W3_of_arg m ρ c main_arg1 (by decide)).trans (W2_of_ne m ρ c main_arg1 (by decide))).trans
    (W1_of_arg m ρ c main_arg1 (by decide))

/-- The result is the region's output array viewed as [8192, 2, 16] with its first two axes swapped. -/
theorem W3_result (c : Dev nD) : W3 m ρ c (Proc.devRef .tc main_v5)
    = transpose S2x8192x16 [1, 0, 2] (shapeCast S8192x2x16 ((dat (V1 m ρ) c).arrAt 3 cfg0.N) shapeCasts_S2x4096x32_S8192x2x16)
        transposes_S8192x2x16_S2x8192x16_1_0_2 := by
  rw [← W2_out]
  show StableHlo.after hostOps1 (W2 m ρ c) (Proc.devRef .tc main_v5) = _
  after_results <;> rfl

/-- At the region's entry the matrix windows' array is the matrix viewed as [2, 4096, 8192]. -/
theorem V1_matrix (c : Dev nD) : V1 m ρ c main_v2
    = shapeCast S2x4096x8192 (m ((c : Thread nD τ).loc main_arg0)) shapeCasts_S8192x8192_S2x4096x8192 := by
  show StableHlo.after hostOps0 (W0 m ρ c) (Proc.devRef .tc main_v2) = _
  after_results <;> rfl

/-- At the region's entry the right-hand side is the batch, first two axes swapped, flattened to [8192, 32]. -/
theorem V1_rhs (c : Dev nD) : V1 m ρ c main_v1
    = shapeCast S8192x32 (transpose S8192x2x16 [1, 0, 2] (m ((c : Thread nD τ).loc main_arg1)) transposes_S2x8192x16_S8192x2x16_1_0_2)
        shapeCasts_S8192x2x16_S8192x32 := by
  show StableHlo.after hostOps0 (W0 m ρ c) (Proc.devRef .tc main_v1) = _
  after_results <;> rfl

end Cert.KernelIdeal.Hand

end
-- ==== Proof.Payload.lean ====
/- The two payloads of the kernel body, read at an index: each is a [256, 8192] × [8192, 32] product into a zero
   accumulator, so its element at (0, r, n) is the plain sum over k of the left block's (0, r, k) times the right
   operand's (k, n). -/
import proofs.«172657_g83932250898621_cont_9to1_m_989_24_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Idealize.ShloMosaic Idealize.SL.Sem

/-! ## The operand indices of the body's matrix product

Its dimension numbers contract the left operand's axis 1 with the right operand's axis 0; the result's axis 0 is the
left operand's axis 0 and its axis 1 the right operand's axis 1. -/

theorem mm_lhs_0 (i : S256x32.Idx) (q : dot_S256x8192_S8192x32_S256x32_1_0_0_1_n_n.contr.Idx) :
    (dot_S256x8192_S8192x32_S256x32_1_0_0_1_n_n.lhsIdx i q 0).val = (i 0).val := by
  unfold DotDims.lhsIdx
  rw [dif_neg (show ¬(0 : Fin S256x8192.rank) ∈ dot_S256x8192_S8192x32_S256x32_1_0_0_1_n_n.lhsBatch by decide), dif_pos (show (0 : Fin S256x8192.rank) ∈ dot_S256x8192_S8192x32_S256x32_1_0_0_1_n_n.lhsNonContracting by decide)]
  rfl
theorem mm_lhs_1 (i : S256x32.Idx) (q : dot_S256x8192_S8192x32_S256x32_1_0_0_1_n_n.contr.Idx) :
    (dot_S256x8192_S8192x32_S256x32_1_0_0_1_n_n.lhsIdx i q 1).val = (q ⟨0, by decide⟩).val :=
  dot_S256x8192_S8192x32_S256x32_1_0_0_1_n_n.lhsIdx_val_of_single rfl i q
theorem mm_rhs_0 (i : S256x32.Idx) (q : dot_S256x8192_S8192x32_S256x32_1_0_0_1_n_n.contr.Idx) :
    (dot_S256x8192_S8192x32_S256x32_1_0_0_1_n_n.rhsIdx i q 0).val = (q ⟨0, by decide⟩).val :=
  dot_S256x8192_S8192x32_S256x32_1_0_0_1_n_n.rhsIdx_val_of_single rfl i q
theorem mm_rhs_1 (i : S256x32.Idx) (q : dot_S256x8192_S8192x32_S256x32_1_0_0_1_n_n.contr.Idx) :
    (dot_S256x8192_S8192x32_S256x32_1_0_0_1_n_n.rhsIdx i q 1).val = (i 1).val := by
  unfold DotDims.rhsIdx
  rw [dif_neg (show ¬(1 : Fin S8192x32.rank) ∈ dot_S256x8192_S8192x32_S256x32_1_0_0_1_n_n.rhsBatch by decide), dif_pos (show (1 : Fin S8192x32.rank) ∈ dot_S256x8192_S8192x32_S256x32_1_0_0_1_n_n.rhsNonContracting by decide)]
  rfl

/-- The body's matrix product into the zero accumulator, read at (r, n): the sum over k of left (r, k) times right
    (k, n). -/
theorem mm_apply (x : FVec Ideal S256x8192 .f32) (y : FVec Ideal S8192x32 .f32) (r : Fin 256) (n : Fin 32) :
    matmul (F := Ideal) dot_S256x8192_S8192x32_S256x32_1_0_0_1_n_n none x y (constant (F := Ideal) S256x32 .f32 0x00000000#32) (ValueIdx.ix2 r n)
      = ∑ k : Fin 8192, x (ValueIdx.ix2 r k) * y (ValueIdx.ix2 k n) := by
  refine (Ideal.matmul_constant_zero_apply dot_S256x8192_S8192x32_S256x32_1_0_0_1_n_n none x y (ValueIdx.ix2 r n)).trans ?_
  rw [← Equiv.sum_comp (ValueIdx.contrEquiv1 dot_S256x8192_S8192x32_S256x32_1_0_0_1_n_n 8192 rfl rfl).symm]
  refine Finset.sum_congr rfl fun k _ => ?_
  have hk := ValueIdx.contrEquiv1_symm_val dot_S256x8192_S8192x32_S256x32_1_0_0_1_n_n 8192 rfl rfl k
  have el : dot_S256x8192_S8192x32_S256x32_1_0_0_1_n_n.lhsIdx (ValueIdx.ix2 r n) ((ValueIdx.contrEquiv1 dot_S256x8192_S8192x32_S256x32_1_0_0_1_n_n 8192 rfl rfl).symm k) = ValueIdx.ix2 r k := funext fun a => Fin.ext (by
    match a with
    | ⟨0, _⟩ => exact mm_lhs_0 _ _
    | ⟨1, _⟩ => exact (mm_lhs_1 _ _).trans hk)
  have er : dot_S256x8192_S8192x32_S256x32_1_0_0_1_n_n.rhsIdx (ValueIdx.ix2 r n) ((ValueIdx.contrEquiv1 dot_S256x8192_S8192x32_S256x32_1_0_0_1_n_n 8192 rfl rfl).symm k) = ValueIdx.ix2 k n := funext fun a => Fin.ext (by
    match a with
    | ⟨0, _⟩ => exact (mm_rhs_0 _ _).trans hk
    | ⟨1, _⟩ => exact mm_rhs_1 _ _)
  rw [el, er]

/-! ## The payloads -/

/-- The first payload at (0, r, n). -/
theorem pay2_apply (v0 : Vec Ideal S8192x32 .f32) (v2 : Vec Ideal S1x256x8192 .f32) (r : Fin 256) (n : Fin 32) :
    Cert.KernelIdeal.Gen.k0_pay2 (F := Ideal) v0 v2 (ValueIdx.ix3 (0 : Fin 1) r n)
      = ∑ k : Fin 8192, v2 (ValueIdx.ix3 (0 : Fin 1) r k) * v0 (ValueIdx.ix2 k n) := by
  unfold Cert.KernelIdeal.Gen.k0_pay2 Cert.KernelIdeal.Gen.k0_pay1
  refine (ValueIdx.shapeCast_ab_1ab_apply _ _ (0 : Fin 1) r n).trans ?_
  rw [shapeCast_self]
  refine (mm_apply _ _ r n).trans ?_
  refine Finset.sum_congr rfl fun k _ => ?_
  rw [ValueIdx.shapeCast_1ab_ab_apply]

/-- The second payload at (0, r, n). -/
theorem pay3_apply (v0 : Vec Ideal S8192x32 .f32) (v8 : Vec Ideal S1x256x8192 .f32) (r : Fin 256) (n : Fin 32) :
    Cert.KernelIdeal.Gen.k0_pay3 (F := Ideal) v0 v8 (ValueIdx.ix3 (0 : Fin 1) r n)
      = ∑ k : Fin 8192, v8 (ValueIdx.ix3 (0 : Fin 1) r k) * v0 (ValueIdx.ix2 k n) := by
  unfold Cert.KernelIdeal.Gen.k0_pay3 Cert.KernelIdeal.Gen.k0_pay1
  refine (ValueIdx.shapeCast_ab_1ab_apply _ _ (0 : Fin 1) r n).trans ?_
  rw [shapeCast_self]
  refine (mm_apply _ _ r n).trans ?_
  refine Finset.sum_congr rfl fun k _ => ?_
  rw [ValueIdx.shapeCast_1ab_ab_apply]

end Cert.KernelIdeal.Hand

end
-- ==== Proof.Bridge.lean ====
/- The law joining the two programs. The kernel's result is, at (h, r, n) of [2, 4096, 32], the sum over k of the
   row-major reshape [2, 4096, 8192] of the matrix at (h, r, k) times the right operand at (k, n); the reference's
   product is, at (R, n) of [8192, 32], the sum over k of the matrix at (R, k) times the right operand at (k, n). Both
   are then reshaped to [8192, 2, 16], and an element of the result sits at the same row-major position on both sides:
   position f is (f / 131072, f / 32 % 4096, f % 32) of the first and (f / 32, f % 32) of the second, and
   (f / 131072) * 4096 + f / 32 % 4096 = f / 32. So the two sides are the same sum of the same products. -/
import proofs.«172657_g83932250898621_cont_9to1_m_989_24_alg».proof.Proof.Gen.KernelIdeal
import proofs.«172657_g83932250898621_cont_9to1_m_989_24_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.SL.Sem

/-- The kernel side's specification: the batched product of a [2, 4096, 8192] array with an [8192, 32] matrix, as a
    plain sum over the contracted axis. -/
def Gk (A3 : Cert.KernelIdeal.S2x4096x8192.Idx → EReal) (B : Cert.KernelIdeal.S8192x32.Idx → EReal) : Cert.KernelIdeal.S2x4096x32.Idx → EReal :=
  fun j => ∑ k : Fin 8192,
    A3 (ValueIdx.ix3 (⟨(j 0).val, (j 0).isLt⟩ : Fin 2) (⟨(j 1).val, (j 1).isLt⟩ : Fin 4096) k)
      * B (ValueIdx.ix2 k (⟨(j 2).val, (j 2).isLt⟩ : Fin 32))

/-- The specification at an index given by its coordinates. -/
theorem Gk_apply (A3 : Cert.KernelIdeal.S2x4096x8192.Idx → EReal) (B : Cert.KernelIdeal.S8192x32.Idx → EReal) (h : Fin 2) (r : Fin 4096) (n : Fin 32) :
    Gk A3 B (ValueIdx.ix3 h r n) = ∑ k : Fin 8192, A3 (ValueIdx.ix3 h r k) * B (ValueIdx.ix2 k n) := rfl

/-- The row-major reshape [8192, 8192] → [2, 4096, 8192] read at (h, r, k): the matrix at (h * 4096 + r, k). -/
theorem reshape3_apply (a0 : Cert.KernelIdeal.S8192x8192.Idx → EReal) (hc : Cert.KernelIdeal.S8192x8192.ShapeCasts Cert.KernelIdeal.S2x4096x8192)
    (h : Fin 2) (r : Fin 4096) (k : Fin 8192) (row : Fin 8192) (hrow : row.val = h.val * 4096 + r.val) :
    shapeCast Cert.KernelIdeal.S2x4096x8192 a0 hc (ValueIdx.ix3 h r k) = a0 (ValueIdx.ix2 row k) :=
  shapeCast_apply a0 hc (ValueIdx.ix3 h r k) (ValueIdx.ix2 row k) (by
    rw [Shape.rowMajor_val_two, Shape.rowMajor_val_three]
    show row.val * 8192 + k.val = (h.val * 4096 + r.val) * 8192 + k.val
    rw [hrow])

/-- The specification over the reshaped matrix, at (h, r, n): the sum over k of the matrix at (h * 4096 + r, k) times the
    right operand at (k, n). -/
theorem Gk_reshape_apply (a0 : Cert.KernelIdeal.S8192x8192.Idx → EReal) (hc : Cert.KernelIdeal.S8192x8192.ShapeCasts Cert.KernelIdeal.S2x4096x8192)
    (vec : Cert.KernelIdeal.S8192x32.Idx → EReal) (h : Fin 2) (r : Fin 4096) (n : Fin 32) (row : Fin 8192)
    (hrow : row.val = h.val * 4096 + r.val) :
    Gk (shapeCast Cert.KernelIdeal.S2x4096x8192 a0 hc) vec (ValueIdx.ix3 h r n)
      = ∑ k : Fin 8192, a0 (ValueIdx.ix2 row k) * vec (ValueIdx.ix2 k n) := by
  refine (Gk_apply _ _ h r n).trans ?_
  refine Finset.sum_congr rfl fun k _ => ?_
  rw [reshape3_apply a0 hc h r k row hrow]

/-! ## The reference's product read at an index -/

theorem ref_lhs_0 (i : Cert.ReferenceIdeal.S8192x32.Idx) (q : Cert.ReferenceIdeal.dot_S8192x8192_S8192x32_S8192x32_1_0_0_1_n_n.contr.Idx) :
    (Cert.ReferenceIdeal.dot_S8192x8192_S8192x32_S8192x32_1_0_0_1_n_n.lhsIdx i q 0).val = (i 0).val := by
  unfold DotDims.lhsIdx
  rw [dif_neg (show ¬(0 : Fin Cert.ReferenceIdeal.S8192x8192.rank) ∈ Cert.ReferenceIdeal.dot_S8192x8192_S8192x32_S8192x32_1_0_0_1_n_n.lhsBatch by decide), dif_pos (show (0 : Fin Cert.ReferenceIdeal.S8192x8192.rank) ∈ Cert.ReferenceIdeal.dot_S8192x8192_S8192x32_S8192x32_1_0_0_1_n_n.lhsNonContracting by decide)]
  rfl
theorem ref_lhs_1 (i : Cert.ReferenceIdeal.S8192x32.Idx) (q : Cert.ReferenceIdeal.dot_S8192x8192_S8192x32_S8192x32_1_0_0_1_n_n.contr.Idx) :
    (Cert.ReferenceIdeal.dot_S8192x8192_S8192x32_S8192x32_1_0_0_1_n_n.lhsIdx i q 1).val = (q ⟨0, by decide⟩).val :=
  Cert.ReferenceIdeal.dot_S8192x8192_S8192x32_S8192x32_1_0_0_1_n_n.lhsIdx_val_of_single rfl i q
theorem ref_rhs_0 (i : Cert.ReferenceIdeal.S8192x32.Idx) (q : Cert.ReferenceIdeal.dot_S8192x8192_S8192x32_S8192x32_1_0_0_1_n_n.contr.Idx) :
    (Cert.ReferenceIdeal.dot_S8192x8192_S8192x32_S8192x32_1_0_0_1_n_n.rhsIdx i q 0).val = (q ⟨0, by decide⟩).val :=
  Cert.ReferenceIdeal.dot_S8192x8192_S8192x32_S8192x32_1_0_0_1_n_n.rhsIdx_val_of_single rfl i q
theorem ref_rhs_1 (i : Cert.ReferenceIdeal.S8192x32.Idx) (q : Cert.ReferenceIdeal.dot_S8192x8192_S8192x32_S8192x32_1_0_0_1_n_n.contr.Idx) :
    (Cert.ReferenceIdeal.dot_S8192x8192_S8192x32_S8192x32_1_0_0_1_n_n.rhsIdx i q 1).val = (i 1).val := by
  unfold DotDims.rhsIdx
  rw [dif_neg (show ¬(1 : Fin Cert.ReferenceIdeal.S8192x32.rank) ∈ Cert.ReferenceIdeal.dot_S8192x8192_S8192x32_S8192x32_1_0_0_1_n_n.rhsBatch by decide), dif_pos (show (1 : Fin Cert.ReferenceIdeal.S8192x32.rank) ∈ Cert.ReferenceIdeal.dot_S8192x8192_S8192x32_S8192x32_1_0_0_1_n_n.rhsNonContracting by decide)]
  rfl

/-- The reference's product at (row, n): the sum over k of the matrix at (row, k) times the right operand at (k, n). -/
theorem ref_dot_apply (a0 : FVec Ideal Cert.ReferenceIdeal.S8192x8192 .f32) (vec : FVec Ideal Cert.ReferenceIdeal.S8192x32 .f32) (row : Fin 8192) (n : Fin 32) :
    Host.dotGeneral (F := Ideal) Cert.ReferenceIdeal.dot_S8192x8192_S8192x32_S8192x32_1_0_0_1_n_n none a0 vec (ValueIdx.ix2 row n)
      = ∑ k : Fin 8192, a0 (ValueIdx.ix2 row k) * vec (ValueIdx.ix2 k n) := by
  refine (Ideal.dotGeneral_apply Cert.ReferenceIdeal.dot_S8192x8192_S8192x32_S8192x32_1_0_0_1_n_n none .single a0 vec (ValueIdx.ix2 row n)).trans ?_
  rw [← Equiv.sum_comp (ValueIdx.contrEquiv1 Cert.ReferenceIdeal.dot_S8192x8192_S8192x32_S8192x32_1_0_0_1_n_n 8192 rfl rfl).symm]
  refine Finset.sum_congr rfl fun k _ => ?_
  have hk := ValueIdx.contrEquiv1_symm_val Cert.ReferenceIdeal.dot_S8192x8192_S8192x32_S8192x32_1_0_0_1_n_n 8192 rfl rfl k
  have el : Cert.ReferenceIdeal.dot_S8192x8192_S8192x32_S8192x32_1_0_0_1_n_n.lhsIdx (ValueIdx.ix2 row n) ((ValueIdx.contrEquiv1 Cert.ReferenceIdeal.dot_S8192x8192_S8192x32_S8192x32_1_0_0_1_n_n 8192 rfl rfl).symm k) = ValueIdx.ix2 row k := funext fun a => Fin.ext (by
    match a with
    | ⟨0, _⟩ => exact ref_lhs_0 _ _
    | ⟨1, _⟩ => exact (ref_lhs_1 _ _).trans hk)
  have er : Cert.ReferenceIdeal.dot_S8192x8192_S8192x32_S8192x32_1_0_0_1_n_n.rhsIdx (ValueIdx.ix2 row n) ((ValueIdx.contrEquiv1 Cert.ReferenceIdeal.dot_S8192x8192_S8192x32_S8192x32_1_0_0_1_n_n 8192 rfl rfl).symm k) = ValueIdx.ix2 k n := funext fun a => Fin.ext (by
    match a with
    | ⟨0, _⟩ => exact (ref_rhs_0 _ _).trans hk
    | ⟨1, _⟩ => exact ref_rhs_1 _ _)
  rw [el, er]

/-! ## The two sides at one index of [8192, 2, 16] -/

/-- The kernel side at (a, b, c), whose row-major position is f = (a * 2 + b) * 16 + c: the sum over k of the matrix at
    (f / 32, k) times the right operand at (k, f % 32). -/
theorem lhs_apply (a0 : Cert.KernelIdeal.S8192x8192.Idx → EReal) (vec : Cert.KernelIdeal.S8192x32.Idx → EReal)
    (h1 : Cert.KernelIdeal.S8192x8192.ShapeCasts Cert.KernelIdeal.S2x4096x8192) (h2 : Cert.KernelIdeal.S2x4096x32.ShapeCasts Cert.KernelIdeal.S8192x2x16)
    (a : Fin 8192) (b : Fin 2) (c : Fin 16) (row : Fin 8192) (n : Fin 32)
    (hrow : row.val = ((a.val * 2 + b.val) * 16 + c.val) / 32) (hn : n.val = ((a.val * 2 + b.val) * 16 + c.val) % 32) :
    shapeCast Cert.KernelIdeal.S8192x2x16 (Gk (shapeCast Cert.KernelIdeal.S2x4096x8192 a0 h1) vec) h2 (ValueIdx.ix3 a b c)
      = ∑ k : Fin 8192, a0 (ValueIdx.ix2 row k) * vec (ValueIdx.ix2 k n) := by
  have ha : a.val < 8192 := a.isLt
  have hb : b.val < 2 := b.isLt
  have hc : c.val < 16 := c.isLt
  have e := shapeCast_apply (Gk (shapeCast Cert.KernelIdeal.S2x4096x8192 a0 h1) vec) h2 (ValueIdx.ix3 a b c)
    (ValueIdx.ix3 (⟨((a.val * 2 + b.val) * 16 + c.val) / 131072, by omega⟩ : Fin 2) (⟨((a.val * 2 + b.val) * 16 + c.val) / 32 % 4096, by omega⟩ : Fin 4096) n) (by
      rw [Shape.rowMajor_val_three, Shape.rowMajor_val_three]
      show (((a.val * 2 + b.val) * 16 + c.val) / 131072 * 4096 + ((a.val * 2 + b.val) * 16 + c.val) / 32 % 4096) * 32 + n.val = (a.val * 2 + b.val) * 16 + c.val
      omega)
  refine e.trans ?_
  exact Gk_reshape_apply a0 h1 vec _ _ n row (by
    show row.val = ((a.val * 2 + b.val) * 16 + c.val) / 131072 * 4096 + ((a.val * 2 + b.val) * 16 + c.val) / 32 % 4096
    omega)

/-- The reference side at (a, b, c): the same sum. -/
theorem rhs_apply (a0 : FVec Ideal Cert.ReferenceIdeal.S8192x8192 .f32) (vec : FVec Ideal Cert.ReferenceIdeal.S8192x32 .f32)
    (h3 : Cert.ReferenceIdeal.S8192x32.ShapeCasts Cert.ReferenceIdeal.S8192x2x16)
    (a : Fin 8192) (b : Fin 2) (c : Fin 16) (row : Fin 8192) (n : Fin 32)
    (hrow : row.val = ((a.val * 2 + b.val) * 16 + c.val) / 32) (hn : n.val = ((a.val * 2 + b.val) * 16 + c.val) % 32) :
    shapeCast Cert.ReferenceIdeal.S8192x2x16 (Host.dotGeneral (F := Ideal) Cert.ReferenceIdeal.dot_S8192x8192_S8192x32_S8192x32_1_0_0_1_n_n none a0 vec) h3 (ValueIdx.ix3 a b c)
      = ∑ k : Fin 8192, a0 (ValueIdx.ix2 row k) * vec (ValueIdx.ix2 k n) := by
  have ha : a.val < 8192 := a.isLt
  have hb : b.val < 2 := b.isLt
  have hc : c.val < 16 := c.isLt
  have e := shapeCast_apply (Host.dotGeneral (F := Ideal) Cert.ReferenceIdeal.dot_S8192x8192_S8192x32_S8192x32_1_0_0_1_n_n none a0 vec) h3 (ValueIdx.ix3 a b c)
    (ValueIdx.ix2 row n) (by
      rw [Shape.rowMajor_val_two, Shape.rowMajor_val_three]
      show row.val * 32 + n.val = (a.val * 2 + b.val) * 16 + c.val
      omega)
  exact e.trans (ref_dot_apply a0 vec row n)

/-- THE LAW, for any proofs of the three reshapes' side conditions. -/
theorem bridge_of (a0 : Cert.KernelIdeal.S8192x8192.Idx → EReal) (vec : Cert.KernelIdeal.S8192x32.Idx → EReal)
    (h1 : Cert.KernelIdeal.S8192x8192.ShapeCasts Cert.KernelIdeal.S2x4096x8192) (h2 : Cert.KernelIdeal.S2x4096x32.ShapeCasts Cert.KernelIdeal.S8192x2x16)
    (h3 : Cert.ReferenceIdeal.S8192x32.ShapeCasts Cert.ReferenceIdeal.S8192x2x16) :
    shapeCast Cert.KernelIdeal.S8192x2x16 (Gk (shapeCast Cert.KernelIdeal.S2x4096x8192 a0 h1) vec) h2
      = shapeCast Cert.ReferenceIdeal.S8192x2x16 (Host.dotGeneral (F := Ideal) (φ₁ := .f32) (φ₂ := .f32) Cert.ReferenceIdeal.dot_S8192x8192_S8192x32_S8192x32_1_0_0_1_n_n none a0 vec) h3 := by
  funext i
  obtain ⟨a, b, c, rfl⟩ : ∃ (a : Fin 8192) (b : Fin 2) (c : Fin 16), i = ValueIdx.ix3 a b c :=
    ⟨i 0, i 1, i 2, ValueIdx.eq_ix3 i⟩
  have ha : a.val < 8192 := a.isLt
  have hb : b.val < 2 := b.isLt
  have hc : c.val < 16 := c.isLt
  exact (lhs_apply a0 vec h1 h2 a b c (⟨((a.val * 2 + b.val) * 16 + c.val) / 32, by omega⟩ : Fin 8192) (⟨((a.val * 2 + b.val) * 16 + c.val) % 32, by omega⟩ : Fin 32) rfl rfl).trans
    (rhs_apply a0 vec h3 a b c (⟨((a.val * 2 + b.val) * 16 + c.val) / 32, by omega⟩ : Fin 8192) (⟨((a.val * 2 + b.val) * 16 + c.val) % 32, by omega⟩ : Fin 32) rfl rfl).symm

/-- THE LAW, at the side conditions the two programs state. -/
theorem bridge (a0 : Cert.KernelIdeal.S8192x8192.Idx → EReal) (vec : Cert.KernelIdeal.S8192x32.Idx → EReal) :
    shapeCast Cert.KernelIdeal.S8192x2x16 (Gk (shapeCast Cert.KernelIdeal.S2x4096x8192 a0 Cert.KernelIdeal.Facts₀.shapeCasts_S8192x8192_S2x4096x8192) vec)
        Cert.KernelIdeal.Facts₀.shapeCasts_S2x4096x32_S8192x2x16
      = shapeCast Cert.ReferenceIdeal.S8192x2x16 (Host.dotGeneral (F := Ideal) (φ₁ := .f32) (φ₂ := .f32) Cert.ReferenceIdeal.dot_S8192x8192_S8192x32_S8192x32_1_0_0_1_n_n none a0 vec)
        Cert.ReferenceIdeal.Facts₀.shapeCasts_S8192x32_S8192x2x16 :=
  bridge_of a0 vec _ _ _

end Cert.KernelIdeal.Hand

end
-- ==== Proof.KIFinal.lean ====
/- The region's output array after its sixteen write-backs, as one function of the arrays the region finds.

   Point t is handed rows 256 t … 256 t + 255 of each half of the matrix viewed as [2, 4096, 8192], and the whole
   right-hand side; it leaves in its output block [2, 256, 32], at (h, r, n), the sum over k of the matrix at
   (h, 256 t + r, k) times the right-hand side at (k, n). That is block t of ONE function of the two arrays, the batched
   product, and the sixteen blocks tile the output array [2, 4096, 32]: row R of either half is point R / 256's. -/
import proofs.«172657_g83932250898621_cont_9to1_m_989_24_alg».proof.Proof.KIBody
import proofs.«172657_g83932250898621_cont_9to1_m_989_24_alg».proof.Proof.Payload
import proofs.«172657_g83932250898621_cont_9to1_m_989_24_alg».proof.Proof.Bridge
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

-- the contents of the core's buffers when the region is entered
variable (V : (c : Dev nD) → (b : Ref sig .tc) → Buf (Elt Ideal) ((c : Thread nD τ).loc b))

/-! ## The printed index maps, decided over the grid -/

/-- Windows 0 and 1 are at block (0, t, 0) and (1, t, 0) of the matrix viewed as [2, 4096, 8192], window 2 is the whole
    right-hand side, window 3 is at block (0, t, 0) of the output array. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 1 ∧ win0_1.index t (1 : Fin 3) = t.val ∧ win0_1.index t (2 : Fin 3) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The output block from the three input blocks, index by index -/

/-- The first slab holds the product of the upper rows. -/
theorem out3_slab0 (x0 x1 : Vec Ideal S1x256x8192 .f32) (x2 : Vec Ideal S8192x32 .f32) (r : Fin 256) (n : Fin 32) :
    out3 x0 x1 x2 (ValueIdx.ix3 (0 : Fin 2) r n)
      = ∑ k : Fin 8192, x0 (ValueIdx.ix3 (0 : Fin 1) r k) * x2 (ValueIdx.ix2 k n) := by
  unfold out3
  have hm : ValueIdx.ix3 (0 : Fin 2) r n ∉ (rO1 : Rect S2x256x32).set := by
    rw [Rect.mem_set_unit]
    intro h
    have h0 : (1 : Nat) ≤ 0 := (h 0).1
    omega
  refine (View.canon_cons_of_not_mem
    (⟨rO1, k0_pay3 (View.ld x2 rB) (View.ld x1 rA)⟩ : View.Piece (Elt Ideal) S2x256x32 .f32) _ hm).trans ?_
  have e : (rO0 : Rect S2x256x32).emb (ValueIdx.ix3 (0 : Fin 1) r n) = ValueIdx.ix3 (0 : Fin 2) r n := by
    funext a; apply Fin.ext
    match a with
    | ⟨0, _⟩ => rfl
    | ⟨1, _⟩ => show 0 + 1 * r.val = r.val; omega
    | ⟨2, _⟩ => show 0 + 1 * n.val = n.val; omega
  rw [← e, View.canon_cons_emb]
  simp only [View.ld_unit_zero (S := S8192x32) hz2, View.ld_unit_zero (S := S1x256x8192) hz3]
  exact pay2_apply x2 x0 r n

/-- The second slab holds the product of the lower rows. -/
theorem out3_slab1 (x0 x1 : Vec Ideal S1x256x8192 .f32) (x2 : Vec Ideal S8192x32 .f32) (r : Fin 256) (n : Fin 32) :
    out3 x0 x1 x2 (ValueIdx.ix3 (1 : Fin 2) r n)
      = ∑ k : Fin 8192, x1 (ValueIdx.ix3 (0 : Fin 1) r k) * x2 (ValueIdx.ix2 k n) := by
  unfold out3
  have e : (rO1 : Rect S2x256x32).emb (ValueIdx.ix3 (0 : Fin 1) r n) = ValueIdx.ix3 (1 : Fin 2) r n := by
    funext a; apply Fin.ext
    match a with
    | ⟨0, _⟩ => rfl
    | ⟨1, _⟩ => show 0 + 1 * r.val = r.val; omega
    | ⟨2, _⟩ => show 0 + 1 * n.val = n.val; omega
  rw [← e, View.canon_cons_emb]
  simp only [View.ld_unit_zero (S := S8192x32) hz2, View.ld_unit_zero (S := S1x256x8192) hz3]
  exact pay3_apply x2 x1 r n

/-- The output block from input blocks that are block t of two arrays: the batched product of the arrays, at block t. -/
theorem out3_block (A : S2x4096x8192.Idx → EReal) (B : S8192x32.Idx → EReal)
    (x0 x1 : Vec Ideal S1x256x8192 .f32) (x2 : Vec Ideal S8192x32 .f32) (tv : Nat) (ht : tv < 16)
    (h0 : ∀ (r : Fin 256) (k : Fin 8192) (row : Fin 4096), row.val = tv * 256 + r.val →
      x0 (ValueIdx.ix3 (0 : Fin 1) r k) = A (ValueIdx.ix3 (0 : Fin 2) row k))
    (h1 : ∀ (r : Fin 256) (k : Fin 8192) (row : Fin 4096), row.val = tv * 256 + r.val →
      x1 (ValueIdx.ix3 (0 : Fin 1) r k) = A (ValueIdx.ix3 (1 : Fin 2) row k))
    (h2 : ∀ (k : Fin 8192) (n : Fin 32), x2 (ValueIdx.ix2 k n) = B (ValueIdx.ix2 k n))
    (h : Fin 2) (r : Fin 256) (n : Fin 32) (row : Fin 4096) (hrow : row.val = tv * 256 + r.val) :
    out3 x0 x1 x2 (ValueIdx.ix3 h r n) = Gk A B (ValueIdx.ix3 h row n) := by
  refine Eq.trans ?_ (Gk_apply A B h row n).symm
  match h with
  | ⟨0, _⟩ =>
    refine (out3_slab0 x0 x1 x2 r n).trans ?_
    exact Finset.sum_congr rfl fun k _ => by rw [h0 r k row hrow, h2 k n]; rfl
  | ⟨1, _⟩ =>
    refine (out3_slab1 x0 x1 x2 r n).trans ?_
    exact Finset.sum_congr rfl fun k _ => by rw [h1 r k row hrow, h2 k n]; rfl

/-! ## The input blocks read off their arrays -/

/-- Window 0's block at point t, at (0, r, k): the matrix at (0, 256 t + r, k). -/
theorem iblk0_apply (c : Dev nD) (t : Fin cfg0.N) (r : Fin 256) (k : Fin 8192) (row : Fin 4096)
    (hrow : row.val = t.val * 256 + r.val) :
    (iblk V c 0 t : Vec Ideal S1x256x8192 .f32) (ValueIdx.ix3 (0 : Fin 1) r k)
      = (V c main_v2 : S2x4096x8192.Idx → EReal) (ValueIdx.ix3 (0 : Fin 2) row k) := by
  obtain ⟨e0, e1, e2, -⟩ := idx_facts t
  unfold iblk
  rw [View.read_apply]
  show V c main_v2 _ = V c main_v2 _
  congr 1
  funext a
  apply Fin.ext
  match a with
  | ⟨0, _⟩ => show win0_0.index t (0 : Fin 3) * 1 + 1 * 0 = 0; rw [e0]
  | ⟨1, _⟩ => show win0_0.index t (1 : Fin 3) * 256 + 1 * r.val = row.val; rw [e1, hrow]; omega
  | ⟨2, _⟩ => show win0_0.index t (2 : Fin 3) * 8192 + 1 * k.val = k.val; rw [e2]; omega

/-- Window 1's block at point t, at (0, r, k): the matrix at (1, 256 t + r, k). -/
theorem iblk1_apply (c : Dev nD) (t : Fin cfg0.N) (r : Fin 256) (k : Fin 8192) (row : Fin 4096)
    (hrow : row.val = t.val * 256 + r.val) :
    (iblk V c 1 t : Vec Ideal S1x256x8192 .f32) (ValueIdx.ix3 (0 : Fin 1) r k)
      = (V c main_v2 : S2x4096x8192.Idx → EReal) (ValueIdx.ix3 (1 : Fin 2) row k) := by
  obtain ⟨-, -, -, e0, e1, e2, -⟩ := idx_facts t
  unfold iblk
  rw [View.read_apply]
  show V c main_v2 _ = V c main_v2 _
  congr 1
  funext a
  apply Fin.ext
  match a with
  | ⟨0, _⟩ => show win0_1.index t (0 : Fin 3) * 1 + 1 * 0 = 1; rw [e0]
  | ⟨1, _⟩ => show win0_1.index t (1 : Fin 3) * 256 + 1 * r.val = row.val; rw [e1, hrow]; omega
  | ⟨2, _⟩ => show win0_1.index t (2 : Fin 3) * 8192 + 1 * k.val = k.val; rw [e2]; omega

/-- Window 2's block at every point is the whole right-hand side. -/
theorem iblk2_apply (c : Dev nD) (t : Fin cfg0.N) (k : Fin 8192) (n : Fin 32) :
    (iblk V c 2 t : Vec Ideal S8192x32 .f32) (ValueIdx.ix2 k n) = (V c main_v1 : S8192x32.Idx → EReal) (ValueIdx.ix2 k n) := by
  obtain ⟨-, -, -, -, -, -, e0, e1, -⟩ := idx_facts t
  unfold iblk
  rw [View.read_apply]
  show V c main_v1 _ = V c main_v1 _
  congr 1
  funext a
  apply Fin.ext
  match a with
  | ⟨0, _⟩ => show win0_2.index t (0 : Fin 2) * 8192 + 1 * k.val = k.val; rw [e0]; omega
  | ⟨1, _⟩ => show win0_2.index t (1 : Fin 2) * 32 + 1 * n.val = n.val; rw [e1]; omega

/-! ## What a point writes back -/

/-- WHAT POINT t WRITES BACK is block t of the batched product of the two arrays as the region finds them. -/
theorem flushed3_eq (c : Dev nD) (t : Fin cfg0.N) :
    (dat (F := Ideal) V c).flushed 3 t
      = ((cfg0.win 3).blk t).view.read (Elt Ideal) (Gk (V c main_v2) (V c main_v1)) := by
  show (cfg0.win 3).cut (grid0.coords t) ((dat V c).after 3 t) = _
  rw [after_3]
  obtain ⟨-, -, -, -, -, -, -, -, e0, e1, e2⟩ := idx_facts t
  have ht : t.val < 16 := Nat.lt_of_lt_of_eq t.isLt N_0
  funext j
  rw [View.read_apply]
  have hj0 : (j 0).val < 2 := (j 0).isLt
  have hj1 : (j 1).val < 256 := (j 1).isLt
  have hj2 : (j 2).val < 32 := (j 2).isLt
  have ej : (cfg0.win 3).xinj (grid0.coords t) j
      = ValueIdx.ix3 (⟨(j 0).val, hj0⟩ : Fin 2) (⟨(j 1).val, hj1⟩ : Fin 256) (⟨(j 2).val, hj2⟩ : Fin 32) := by
    funext a
    match a with
    | ⟨0, _⟩ => rfl
    | ⟨1, _⟩ => rfl
    | ⟨2, _⟩ => rfl
  have ee : ((cfg0.win 3).blk t).view.emb j
      = ValueIdx.ix3 (⟨(j 0).val, hj0⟩ : Fin 2) (⟨t.val * 256 + (j 1).val, by omega⟩ : Fin 4096) (⟨(j 2).val, hj2⟩ : Fin 32) := by
    funext a
    apply Fin.ext
    match a with
    | ⟨0, _⟩ => show win0_3.index t (0 : Fin 3) * 2 + 1 * (j 0).val = (j 0).val; rw [e0]; omega
    | ⟨1, _⟩ => show win0_3.index t (1 : Fin 3) * 256 + 1 * (j 1).val = t.val * 256 + (j 1).val; rw [e1]; omega
    | ⟨2, _⟩ => show win0_3.index t (2 : Fin 3) * 32 + 1 * (j 2).val = (j 2).val; rw [e2]; omega
  show out3 (iblk V c 0 t) (iblk V c 1 t) (iblk V c 2 t) ((cfg0.win 3).xinj (grid0.coords t) j)
    = Gk (V c main_v2 : S2x4096x8192.Idx → EReal) (V c main_v1 : S8192x32.Idx → EReal) (((cfg0.win 3).blk t).view.emb j)
  rw [ej, ee]
  exact out3_block (V c main_v2 : S2x4096x8192.Idx → EReal) (V c main_v1 : S8192x32.Idx → EReal) _ _ _ t.val ht
    (fun r k row h => iblk0_apply V c t r k row h) (fun r k row h => iblk1_apply V c t r k row h)
    (fun k n => iblk2_apply V c t k n) _ _ _ _ rfl

/-! ## The blocks tile the output array -/

/-- An index of the array is in point t's block iff each coordinate is in the block's range on its axis. -/
theorem mem_blk3 (t : Fin cfg0.N) (i : S2x4096x32.Idx) :
    i ∈ ((cfg0.win 3).blk t).view.set ↔ ∀ a : Fin 3, win0_3.index t a * S2x256x32.size a ≤ (i a).val ∧ (i a).val < win0_3.index t a * S2x256x32.size a + S2x256x32.size a := by
  show i ∈ ((View.whole main_v3).slice (win0_3.rect t)).set ↔ _
  rw [View.set_slice_whole, Rect.mem_set_unit]
  exact Iff.rfl

/-- Row R of either half of the output array is in point R / 256's block, and every point writes its block back. -/
theorem covered3 (i : S2x4096x32.Idx) :
    ∃ t : Fin cfg0.N, (cfg0.win 3).flush t = true ∧ i ∈ ((cfg0.win 3).blk t).view.set := by
  have h0 : (i 0).val < 2 := (i 0).isLt
  have h1 : (i 1).val < 4096 := (i 1).isLt
  have h2 : (i 2).val < 32 := (i 2).isLt
  have hlt : (i 1).val / 256 < cfg0.N := Nat.lt_of_lt_of_eq (by omega : (i 1).val / 256 < 16) N_0.symm
  refine ⟨⟨(i 1).val / 256, hlt⟩, flush0_3 _, ?_⟩
  obtain ⟨-, -, -, -, -, -, -, -, e0, e1, e2⟩ := idx_facts ⟨(i 1).val / 256, hlt⟩
  rw [mem_blk3]
  intro a
  match a with
  | ⟨0, _⟩ =>
    show win0_3.index ⟨(i 1).val / 256, hlt⟩ (0 : Fin 3) * 2 ≤ (i 0).val ∧ (i 0).val < win0_3.index ⟨(i 1).val / 256, hlt⟩ (0 : Fin 3) * 2 + 2
    rw [e0]; omega
  | ⟨1, _⟩ =>
    show win0_3.index ⟨(i 1).val / 256, hlt⟩ (1 : Fin 3) * 256 ≤ (i 1).val ∧ (i 1).val < win0_3.index ⟨(i 1).val / 256, hlt⟩ (1 : Fin 3) * 256 + 256
    rw [e1]; show (i 1).val / 256 * 256 ≤ (i 1).val ∧ (i 1).val < (i 1).val / 256 * 256 + 256; omega
  | ⟨2, _⟩ =>
    show win0_3.index ⟨(i 1).val / 256, hlt⟩ (2 : Fin 3) * 32 ≤ (i 2).val ∧ (i 2).val < win0_3.index ⟨(i 1).val / 256, hlt⟩ (2 : Fin 3) * 32 + 32
    rw [e2]; omega

/-- THE ARRAY after the run: the batched product of the matrix viewed as [2, 4096, 8192] with the right-hand side. -/
theorem final3 (c : Dev nD) :
    (dat (F := Ideal) V c).arrAt 3 cfg0.N = Gk (V c main_v2) (V c main_v1) :=
  (dat V c).arrAt_eq_of_cover 3 (Gk (V c main_v2) (V c main_v1)) (fun t _ => flushed3_eq V c t) covered3

end Cert.KernelIdeal.Hand

end
-- ==== Proof.KIValue.lean ====
/-
  The idealized kernel's result is the reference's.

  At the ideal instance the region's output array is, index by index, the sum over `k` of the matrix view at
  `(h, r, k)` times the right-hand side at `(k, n)`; the matrix view is the matrix read row-major, so viewed as
  [8192, 2, 16] that array is the reference's matrix product viewed the same way — the same sum of the same
  products, a sum into a zero accumulator being the plain sum. Both programs then swap the first two axes. No
  finiteness is used: no term is moved across a sum.
-/
import proofs.«172657_g83932250898621_cont_9to1_m_989_24_alg».proof.Proof.KIRead
import proofs.«172657_g83932250898621_cont_9to1_m_989_24_alg».proof.Proof.KIFinal
import proofs.«172657_g83932250898621_cont_9to1_m_989_24_alg».proof.Proof.Bridge
import proofs.«172657_g83932250898621_cont_9to1_m_989_24_alg».proof.Proof.Gen.ReferenceIdeal.Read

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- At the return the result buffer holds the reference's term of the launch contents of the two arguments. -/
theorem result_eq (c : Dev nD) : W3 (F := Ideal) m ρ c (Proc.devRef .tc main_v5)
    = Cert.ReferenceIdeal.Read.val_main_v4 (F := Ideal) (m ((c : Thread nD τ).loc main_arg0)) (m ((c : Thread nD τ).loc main_arg1)) := by
  rw [W3_result, final3, V1_matrix, V1_rhs]
  unfold Cert.ReferenceIdeal.Read.val_main_v4 Cert.ReferenceIdeal.Read.val_main_v3 Cert.ReferenceIdeal.Read.val_main_v2
    Cert.ReferenceIdeal.Read.val_main_v1 Cert.ReferenceIdeal.Read.val_main_v0
  exact congrArg (fun y => transpose S2x8192x16 [1, 0, 2] y transposes_S8192x2x16_S2x8192x16_1_0_2) (bridge_of _ _ _ _ _)

end Cert.KernelIdeal.Hand

end
-- ==== Proof.lean ====
/-
  The certificate of a blocked matrix product against one whole matrix product.

  The kernel applies a dense [8192, 8192] matrix to the 2 × 16 = 32 feature columns of a batch [2, 8192, 16]:
  out[b, r, f] = Σ_k matrix[r, k] · batch[b, k, f]. It views the matrix as two halves of 4096 rows, and at each of
  sixteen grid points multiplies 256 rows of each half with the flattened batch [8192, 32]; the reference flattens
  the batch the same way and takes one product. Around both sits the same pair of axis swaps.

  The three frames come from the programs' runs: the two kernels' from a run of the pipeline proved
  segment by segment (the host stretch, the region, the host stretch: every unscoped buffer tracked from the launch to
  the return), the reference's from the run of its five host operations. Nothing was rewritten by the idealization, so there is nothing to preserve. The
  two idealized programs end with equal results because the region's output array, as a function of the entry
  arrays, is the reference's product read through the same reshape.
-/
import proofs.«172657_g83932250898621_cont_9to1_m_989_24_alg».proof.Defs
import proofs.«172657_g83932250898621_cont_9to1_m_989_24_alg».proof.Proof.Gen.Kernel
import proofs.«172657_g83932250898621_cont_9to1_m_989_24_alg».proof.Proof.Gen.KernelIdeal
import proofs.«172657_g83932250898621_cont_9to1_m_989_24_alg».proof.Proof.Gen.ReferenceIdeal
import proofs.«172657_g83932250898621_cont_9to1_m_989_24_alg».proof.Proof.Gen.Pre_finite_inputs
import proofs.«172657_g83932250898621_cont_9to1_m_989_24_alg».proof.Proof.Gen.ReferenceIdeal.Run
import proofs.«172657_g83932250898621_cont_9to1_m_989_24_alg».proof.Proof.Gen.ReferenceIdeal.Read
import proofs.«172657_g83932250898621_cont_9to1_m_989_24_alg».proof.Proof.KRead
import proofs.«172657_g83932250898621_cont_9to1_m_989_24_alg».proof.Proof.KIValue
import Idealize.ShloMosaic.Adequacy
import Idealize.ShloMosaic.Init

noncomputable section

namespace Cert.Proof

open Idealize.ShloMosaic Idealize.ShloMosaic.TcCoe Idealize.SL.Sem

/-- The word-level kernel runs to the end and leaves both arguments as launched. -/
theorem frame_k : Cert.frame_Kernel (hKernel := Cert.Kernel.Gen.facts) (hPre_finite_inputs := Cert.Pre_finite_inputs.Gen.facts) :=
  fun m ρ _ => (θ_run Cert.Kernel.defs _ _).mono
    (fun r h c => ⟨(h c _ (Cert.Kernel.Hand.mem_uc Cert.Kernel.main_arg0 (by decide))).trans (Cert.Kernel.Hand.W3_main_arg0 m ρ c),
      (h c _ (Cert.Kernel.Hand.mem_uc Cert.Kernel.main_arg1 (by decide))).trans (Cert.Kernel.Hand.W3_main_arg1 m ρ c)⟩)
    (Cert.Kernel.Hand.run_main (F := Bits) m ρ)

/-- So does the idealized kernel. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono
    (fun r h c => ⟨(h c _ (Cert.KernelIdeal.Hand.mem_uc Cert.KernelIdeal.main_arg0 (by decide))).trans (Cert.KernelIdeal.Hand.W3_main_arg0 m ρ c),
      (h c _ (Cert.KernelIdeal.Hand.mem_uc Cert.KernelIdeal.main_arg1 (by decide))).trans (Cert.KernelIdeal.Hand.W3_main_arg1 m ρ c)⟩)
    (Cert.KernelIdeal.Hand.run_main (F := Ideal) m ρ)

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs end with the reference's term of the
    arguments in their result buffers, the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v4 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c _ (Cert.KernelIdeal.Hand.mem_uc Cert.KernelIdeal.main_v5 (by decide))).trans (Cert.KernelIdeal.Hand.result_eq m ρ c),
        (h c _ (Cert.KernelIdeal.Hand.mem_uc Cert.KernelIdeal.main_arg0 (by decide))).trans (Cert.KernelIdeal.Hand.W3_main_arg0 m ρ c),
        (h c _ (Cert.KernelIdeal.Hand.mem_uc Cert.KernelIdeal.main_arg1 (by decide))).trans (Cert.KernelIdeal.Hand.W3_main_arg1 m ρ c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
